-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S1 : Shape := ⟨1, ![1]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : IVec S4096x4096 32) (main_arg2 : FVec F S1 .f32) (main_arg3 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4096x4096 : Shape := ⟨2, ![4096, 4096]⟩
abbrev S1 : Shape := ⟨1, ![1]⟩
abbrev S4096 : Shape := ⟨1, ![4096]⟩
abbrev S16384x4096 : Shape := ⟨2, ![16384, 4096]⟩
abbrev S1x1 : Shape := ⟨2, ![1, 1]⟩
abbrev S1x4096 : Shape := ⟨2, ![1, 4096]⟩
abbrev S256x4096 : Shape := ⟨2, ![256, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 10
  | .vmem => 13
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .i32⟩
  | .hbm, ⟨2, _⟩ => ⟨S1, .f32⟩
  | .hbm, ⟨3, _⟩ => ⟨S4096, .f32⟩
  | .hbm, ⟨4, _⟩ => ⟨S16384x4096, .f32⟩
  | .hbm, ⟨5, _⟩ => ⟨S1x1, .f32⟩
  | .hbm, ⟨6, _⟩ => ⟨S1x4096, .f32⟩
  | .hbm, ⟨7, _⟩ => ⟨S4096x4096, .bf16⟩
  | .hbm, ⟨8, _⟩ => ⟨S16384x4096, .f32⟩
  | .hbm, ⟨9, _⟩ => ⟨S4x4096x4096, .f32⟩
  | .local _ .vmem, ⟨0, _⟩ => ⟨S256x4096, .i32⟩
  | .local _ .vmem, ⟨1, _⟩ => ⟨S256x4096, .i32⟩
  | .local _ .vmem, ⟨2, _⟩ => ⟨S256x4096, .bf16⟩
  | .local _ .vmem, ⟨3, _⟩ => ⟨S256x4096, .bf16⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | .local _ .vmem, ⟨7, _⟩ => ⟨S2048x512, .bf16⟩
  | .local _ .vmem, ⟨8, _⟩ => ⟨S1x2048, .f32⟩
  | .local _ .vmem, ⟨9, _⟩ => ⟨S1x2048, .f32⟩
  | .local _ .vmem, ⟨10, _⟩ => ⟨S1x1, .f32⟩
  | .local _ .vmem, ⟨11, _⟩ => ⟨S1024x2048, .f32⟩
  | .local _ .vmem, ⟨12, _⟩ => ⟨S1024x2048, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![16, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x4096x4096_S16384x4096 : S4x4096x4096.ShapeCasts S16384x4096
  shapeCasts_S1_S1x1 : S1.ShapeCasts S1x1
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x2048_S1024x2048 : S1024x2048.ShapeCasts S1024x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S16384x4096_S4x4096x4096 : S16384x4096.ShapeCasts S4x4096x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x4096.size a
  hwx1_0 : ∀ i : grid1.Coords, EltTy.bits .f32 = 32 ∨ (Rect.block (s := S16384x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S16384x4096.size a
  hwx1_4 : ∀ i : grid1.Coords, EltTy.bits .f32 = 32 ∨ (Rect.block (s := S16384x4096) S1024x2048.size (cc1_transform_4 i) (hinb1_4 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S1 : Shape := ⟨1, ![1]⟩
abbrev S4096 : Shape := ⟨1, ![4096]⟩
abbrev S_ : Shape := ⟨0, ![]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .i32⟩
  | .hbm, ⟨2, _⟩ => ⟨S1, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4x4096x4096, .f32⟩
  | .hbm, ⟨9, _⟩ => ⟨S1x1x4096, .f32⟩
  | .hbm, ⟨10, _⟩ => ⟨S4x4096x4096, .f32⟩
  | .hbm, ⟨11, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S1_S_ : S1.ShapeCasts S_
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.KernelRun.lean ====
/-
  The idealized kernel program's run with its result buffer kept in view.

  The program is two launches between host re-layouts. Its buffer contents are followed boundary by boundary: the
  launch memory, then the three host reshapes of x, scale and bias, then the first launch's array (the integer weights
  converted), then the second launch's array (the tiled product with its scale and bias), then the final reshape.
  Every weakly fair execution ends with each unscoped buffer at the last of these valuations. Here that is read at the
  result buffer as well as at the four arguments: the result ends at the last valuation's contents at that buffer, the
  arguments end as launched.
-/
import proofs.«131340_j38946763441064_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the final
    valuation's contents there, and the four argument arrays end as launched. -/
theorem run_main : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.RunValue

end
-- ==== Proof.Region0.lean ====
/-
  The first launch: the integer weights converted to floats, as one whole array.

  The grid has 16 points; point `t` reads rows `256 t … 256 t + 255` of the [4096, 4096] integer array, converts each
  entry, and writes the same band of rows of the result. The bands tile the array, so after the launch the result array
  is the entrywise conversion of the integer array as the launch found it.
-/
import proofs.«131340_j38946763441064_2_alg».proof.Proof.Gen.KernelIdeal.Frame
import Idealize.ShloMosaic.Lib.Pipeline.Value

noncomputable section

namespace Cert.KernelIdeal.Region0

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The entrywise conversion of the whole integer array. -/
abbrev conv (wq : S4096x4096.Idx → Elt F .i32) : S4096x4096.Idx → Elt F .bf16 := fun i => FloatOps.sitofp .bf16 (wq i)

/-- Both windows sit on row band `t` at point `t`, at column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is band `t` of the converted array. -/
theorem flushed_eq (c : Dev nD) (t : Fin cfg0.N) :
    (dat0 V c).flushed 1 t = ((cfg0.win 1).blk t).view.read (Elt F) (conv (V c main_arg1)) := by
  show (cfg0.win 1).cut (grid0.coords t) ((dat0 V c).after 1 t) = _
  rw [after0_1]
  unfold out0_1
  rw [View.canon_unit_zero hz]
  simp only [View.ld_unit_zero (S := S256x4096) hz]
  obtain ⟨e0, e1, e2, e3⟩ := idx_facts t
  funext j
  show FloatOps.sitofp .bf16 (V c main_arg1 (((cfg0.win 0).blk t).view.emb j))
    = FloatOps.sitofp .bf16 (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 4096 + 1 * (j 1).val = win0_1.index t (1 : Fin 2) * 4096 + 1 * (j 1).val; omega
  rw [h0]

/-- An index is in point `t`'s band iff each coordinate is in the band's range on its axis. -/
theorem mem_blk (t : Fin cfg0.N) (i : S4096x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v3).slice (win0_1.rect t)).set ↔ _
  rw [View.set_slice_whole, Rect.mem_set_unit]
  exact Iff.rfl

/-- After the launch the result array is the converted integer array: row `r` lies in band `r / 256`. -/
theorem final (c : Dev nD) : (dat0 V c).arrAt 1 cfg0.N = conv (V c main_arg1) :=
  (dat0 V c).arrAt_eq_of_cover 1 (conv (V c main_arg1)) (fun t _ => flushed_eq V c t) fun i => by
    have hi0 : (i 0).val < 4096 := (i 0).isLt
    have hi1 : (i 1).val < 4096 := (i 1).isLt
    have hN : cfg0.N = 16 := N_0
    have hlt : (i 0).val / 256 < cfg0.N := by rw [hN]; omega
    obtain ⟨e0, e1, e2, e3⟩ := idx_facts ⟨(i 0).val / 256, hlt⟩
    refine ⟨⟨(i 0).val / 256, hlt⟩, flush0_1 _, ?_⟩
    rw [mem_blk]
    intro a
    match a with
    | ⟨0, _⟩ =>
      show win0_1.index ⟨(i 0).val / 256, hlt⟩ (0 : Fin 2) * 256 ≤ (i 0).val
        ∧ (i 0).val < win0_1.index ⟨(i 0).val / 256, hlt⟩ (0 : Fin 2) * 256 + 256
      rw [e2]; dsimp only; omega
    | ⟨1, _⟩ =>
      show win0_1.index ⟨(i 0).val / 256, hlt⟩ (1 : Fin 2) * 4096 ≤ (i 1).val
        ∧ (i 1).val < win0_1.index ⟨(i 0).val / 256, hlt⟩ (1 : Fin 2) * 4096 + 4096
      rw [e3]; omega

end Cert.KernelIdeal.Region0

end
-- ==== Proof.Cases.lean ====
/-
  What one grid point of the tiled product leaves in its output block, in each of its three control cases.

  The body keeps a running block. At the first tile of a contraction it stores the zero block, reads it back, and stores
  the read-back plus the tile's product; at a middle tile it stores the block as found plus the tile's product; at the
  last tile it does the same and then stores that total times the scale plus the bias row. Each case's last store
  covers the whole block, so the block ends at that store's value: the product-and-add term over the zero block, over
  the block as found, and, at the last tile, the scale-and-bias term of it.
-/
import proofs.«131340_j38946763441064_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A middle tile: the block as found plus the tile's product. -/
theorem out_B (c : Dev nD) (i : grid1.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1x1 .f32) (h6 : a6.IsWhole) (a7 : Memref sig .tc .vmem S1024x2048 .f32) (h7 : a7.IsWhole)
    (hc0 : ¬cond1_0 i) (hc1 : ¬cond1_1 i)
    (x0 : Vec F S1024x512 .f32) (x1 : Vec F S2048x512 .bf16) (x2 : Vec F S1x2048 .f32) (x3 : Vec F S1x1 .f32)
    (xo : Vec F S1024x2048 .f32) :
    out1_B_4 c i a3 h3 a4 h4 a5 h5 a6 h6 a7 h7 hc0 hc1 x0 x1 x2 x3 xo = k1_pay2 x0 x1 xo := by
  unfold out1_B_4
  rw [View.read_writes_eq_canon _ _ _ (cover1_B_4 c i a3 h3 a4 h4 a5 h5 a6 h6 a7 h7 hc0 hc1 x0 x1 x2 x3 xo)]
  unfold kernelRun1_B
  dsimp only
  rw [View.canon_unit_zero hz]
  simp only [View.readAt_eq_ld, h3.read_unread, h4.read_unread, h7.read_unread, View.ld_unit_zero (S := S1024x512) hz,
    View.ld_unit_zero (S := S2048x512) hz, View.ld_unit_zero (S := S1024x2048) hz]

/-- The first tile: the zero block plus the tile's product. -/
theorem out_A (c : Dev nD) (i : grid1.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1x1 .f32) (h6 : a6.IsWhole) (a7 : Memref sig .tc .vmem S1024x2048 .f32) (h7 : a7.IsWhole)
    (hc0 : cond1_0 i) (hc1 : ¬cond1_1 i)
    (x0 : Vec F S1024x512 .f32) (x1 : Vec F S2048x512 .bf16) (x2 : Vec F S1x2048 .f32) (x3 : Vec F S1x1 .f32) :
    out1_A_4 c i a3 h3 a4 h4 a5 h5 a6 h6 a7 h7 hc0 hc1 x0 x1 x2 x3 = k1_pay2 x0 x1 (k1_pay1 (F := F)) := by
  unfold out1_A_4
  rw [View.read_writes_eq_canon _ _ _ (cover1_A_4 c i a3 h3 a4 h4 a5 h5 a6 h6 a7 h7 hc0 hc1 x0 x1 x2 x3)]
  unfold kernelRun1_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x512) hz,
    View.ld_unit_zero (S := S2048x512) hz]

/-- The last tile: the block as found plus the tile's product, then times the scale plus the bias row. -/
theorem out_C (c : Dev nD) (i : grid1.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1x1 .f32) (h6 : a6.IsWhole) (a7 : Memref sig .tc .vmem S1024x2048 .f32) (h7 : a7.IsWhole)
    (hc0 : ¬cond1_0 i) (hc1 : cond1_1 i)
    (x0 : Vec F S1024x512 .f32) (x1 : Vec F S2048x512 .bf16) (x2 : Vec F S1x2048 .f32) (x3 : Vec F S1x1 .f32)
    (xo : Vec F S1024x2048 .f32) :
    out1_C_4 c i a3 h3 a4 h4 a5 h5 a6 h6 a7 h7 hc0 hc1 x0 x1 x2 x3 xo = k1_pay3 x3 (k1_pay2 x0 x1 xo) x2 := by
  unfold out1_C_4
  rw [View.read_writes_eq_canon _ _ _ (cover1_C_4 c i a3 h3 a4 h4 a5 h5 a6 h6 a7 h7 hc0 hc1 x0 x1 x2 x3 xo)]
  unfold kernelRun1_C
  dsimp only
  sl_unfold_words
  rw [View.canon_cons_unit_zero (S := S1024x2048) hz, View.readCov_unit_zero (S := S1024x2048) _ hz]
  simp only [View.readAt_eq_ld, h3.read_unread, h4.read_unread, h5.read_unread, h6.read_unread, h7.read_unread,
    View.ld_unit_zero (S := S1024x512) hz, View.ld_unit_zero (S := S2048x512) hz, View.ld_unit_zero (S := S1024x2048) hz,
    View.ld_unit_zero (S := S1x2048) hz, View.ld_unit_zero (S := S1x1) hz]

end Cert.KernelIdeal.Cases

end
-- ==== Proof.LibRealSoftmax.lean ====
/-
  Real numbers inside the extended reals, for softmax-like kernels.

  * Finite sums and maxima of real numbers, computed in the extended reals, are real numbers (the maximum over a
    nonempty range, folded from `-∞`).
  * An extended real whose absolute value `max a (-a)` is below `+∞` is a real number; so is one that passes the
    entrywise test `|a| < +∞` of a finiteness precondition.
  * A softmax does not change when one number is subtracted from every logit: `exp (a - t) = exp a * exp (-t)`, and the
    common factor cancels between an entry and the total. Multiplying by the reciprocal of the total is dividing by it.
  * The single-precision words of 1, -1, 2, 64, `+∞` and `-∞`, as extended reals.
-/
import Idealize.ShloMosaic.PureOps.Ideal
import Idealize.ShloMosaic.PureOps.Ideal.Laws

noncomputable section

namespace Cert.LibRealSoftmax

open Idealize.ShloMosaic

/-! ## The constants, as real numbers -/

/-- The word `0x3F800000` is 1. -/
theorem word_one : Ideal.ofBits .f32 0x3F800000#32 = ((1 : ℝ) : EReal) := by
  simp [Ideal.ofBits, Ideal.ieee]
  norm_cast
  norm_num
/-- The word `0xBF800000` is -1. -/
theorem word_negOne : Ideal.ofBits .f32 0xBF800000#32 = ((-1 : ℝ) : EReal) := by
  simp [Ideal.ofBits, Ideal.ieee]
  norm_cast
  norm_num
/-- The word `0x40000000` is 2. -/
theorem word_two : Ideal.ofBits .f32 0x40000000#32 = ((2 : ℝ) : EReal) := by
  simp [Ideal.ofBits, Ideal.ieee]
  norm_cast
  norm_num
/-- The word `0x42800000` is 64. -/
theorem word_sixtyFour : Ideal.ofBits .f32 0x42800000#32 = ((64 : ℝ) : EReal) := by
  simp [Ideal.ofBits, Ideal.ieee]
  norm_cast
  norm_num
/-- The word `0xFF800000` is `-∞`. -/
theorem word_negInf : Ideal.ofBits .f32 0xFF800000#32 = (⊥ : EReal) := by
  simp [Ideal.ofBits, Ideal.ieee]
/-- The word `0x7F800000` is `+∞`. -/
theorem word_posInf : Ideal.ofBits .f32 0x7F800000#32 = (⊤ : EReal) := by
  simp [Ideal.ofBits, Ideal.ieee]

/-! ## Finite sums and maxima of real numbers, inside the extended reals -/

/-- A finite sum of real numbers, computed in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, compared in the extended reals, is the real maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The maximum of finitely many real numbers over a nonempty range, folded from `-∞`, is a real number. -/
theorem fold_max_real {ι : Type} (s : Finset ι) (f : ι → ℝ) (hs : s.Nonempty) :
    ∃ μ : ℝ, s.fold max (⊥ : EReal) (fun i => ((f i : ℝ) : EReal)) = (μ : EReal) := by
  classical
  have key : ∀ s : Finset ι, (s.fold max (⊥ : EReal) (fun i => ((f i : ℝ) : EReal)) = ⊥ ∧ s = ∅)
      ∨ ∃ μ : ℝ, s.fold max (⊥ : EReal) (fun i => ((f i : ℝ) : EReal)) = (μ : EReal) := by
    intro s
    induction s using Finset.induction_on with
    | empty => exact Or.inl ⟨Finset.fold_empty, rfl⟩
    | insert a s ha ih =>
      right
      rw [Finset.fold_insert ha]
      rcases ih with ⟨h, -⟩ | ⟨μ, h⟩
      · exact ⟨f a, by rw [h]; exact max_eq_left bot_le⟩
      · exact ⟨max (f a) μ, by rw [h, max_coe]⟩
  rcases key s with ⟨-, h⟩ | h
  · exact absurd h hs.ne_empty
  · exact h

/-! ## A finite entry is a real number -/

/-- An extended real with absolute value below `+∞` is a real number. -/
theorem real_of_abs_lt_top (a : EReal) (h : max a (-a) < ⊤) : ∃ r : ℝ, a = (r : EReal) := by
  by_cases ht : a = ⊤
  · subst ht; simp at h
  by_cases hb : a = ⊥
  · subst hb; simp at h
  exact ⟨a.toReal, (EReal.coe_toReal ht hb).symm⟩

/-- The entrywise test `|a| < +∞` of a finiteness precondition, passed: the entry is a real number. -/
theorem real_of_test (a : EReal)
    (h : Ideal.cmp .olt (max a (-a)) (Ideal.ofBits .f32 0x7F800000#32) = 1#1) : ∃ r : ℝ, a = (r : EReal) := by
  rw [word_posInf] at h
  refine real_of_abs_lt_top a ?_
  by_contra hn
  simp [Ideal.cmp, hn] at h

/-! ## Shift invariance of the softmax, on the reals -/

/-- Subtracting `μ` from every logit, or `δ + ν` from every logit, gives the same softmax; and multiplying by the
    reciprocal of the total is dividing by it. -/
theorem softmax_shift_real {N : ℕ} (a : Fin N → ℝ) (δ μ ν : ℝ) (j : Fin N) :
    Real.exp (a j - μ) * (1 / ∑ l, Real.exp (a l - μ)) = Real.exp (a j - δ - ν) / ∑ l, Real.exp (a l - δ - ν) := by
  have hS : 0 < ∑ l, Real.exp (a l) := Finset.sum_pos (fun l _ => Real.exp_pos _) ⟨j, Finset.mem_univ _⟩
  have h1 : ∀ t : ℝ, ∑ l, Real.exp (a l - t) = (∑ l, Real.exp (a l)) * Real.exp (-t) := by
    intro t
    rw [Finset.sum_mul]
    refine Finset.sum_congr rfl fun l _ => ?_
    rw [← Real.exp_add, sub_eq_add_neg]
  have h2 : ∀ l, a l - δ - ν = a l - (δ + ν) := fun l => by ring
  simp only [h2, h1]
  rw [sub_eq_add_neg (a j) μ, sub_eq_add_neg (a j) (δ + ν), Real.exp_add, Real.exp_add]
  have e1 : Real.exp (-μ) ≠ 0 := (Real.exp_pos _).ne'
  have e2 : Real.exp (-(δ + ν)) ≠ 0 := (Real.exp_pos _).ne'
  have e3 : (∑ l, Real.exp (a l)) ≠ 0 := hS.ne'
  field_simp

end Cert.LibRealSoftmax

end
-- ==== Proof.Spec.lean ====
/-
  The two laws that join the tiled kernel to the plain reference, free of any program.

  * A running total with period 8. A sequence `a` restarts at every position `n ≡ 0 (mod 8)` with the term `T n`, adds
    `T n` to its previous value at the positions in between, and at `n ≡ 7` adds `T n` and then applies a final map
    `E n`. Then at every `n ≡ 7` it holds `E n` of the total of the eight terms `T (n - 7), …, T n`.
  * A real scale moved across a real sum. For real numbers, `(∑ x e * w e) * s + b = ∑ x e * (w e * s) + b`; this is an
    identity of real numbers, and both sides computed in the extended reals are that real number. (With an infinite
    entry the two sides can differ, which is why the entries must be real.)
-/
import proofs.«131340_j38946763441064_2_alg».proof.Proof.LibRealSoftmax
import Mathlib.Algebra.BigOperators.Fin

open scoped BigOperators

namespace Cert.Spec

/-- The running total over a period of 8 positions, in closed form at the last position of the period. -/
theorem acc8 {M : Type*} [AddCommMonoid M] (N : ℕ) (a T : ℕ → M) (E : ℕ → M → M)
    (h0 : ∀ n, n < N → n % 8 = 0 → a n = T n)
    (h1 : ∀ n, n < N → n % 8 ≠ 0 → n % 8 ≠ 7 → a n = a (n - 1) + T n)
    (h2 : ∀ n, n < N → n % 8 = 7 → a n = E n (a (n - 1) + T n)) :
    ∀ n, n < N → n % 8 = 7 → a n = E n (∑ k ∈ Finset.range 8, T (n - 7 + k)) := by
  have part : ∀ j, j < 7 → ∀ g, 8 * g + j < N → a (8 * g + j) = ∑ k ∈ Finset.range (j + 1), T (8 * g + k) := by
    intro j
    induction j with
    | zero =>
      intro _ g hg
      rw [h0 _ hg (by omega)]
      simp
    | succ j ih =>
      intro hj g hg
      have hprev := ih (by omega) g (by omega)
      rw [h1 _ hg (by omega) (by omega), show 8 * g + (j + 1) - 1 = 8 * g + j by omega, hprev,
        Finset.sum_range_succ _ (j + 1)]
  intro n hn h7
  obtain ⟨g, rfl⟩ : ∃ g, n = 8 * g + 7 := ⟨n / 8, by omega⟩
  rw [h2 _ hn h7, show 8 * g + 7 - 1 = 8 * g + 6 by omega, part 6 (by omega) g (by omega),
    show 8 * g + 7 - 7 = 8 * g by omega]
  simp only [Finset.sum_range_succ, Finset.sum_range_zero]

/-- A real scale moved across a real sum, computed in the extended reals. -/
theorem scale_out {ι : Type} [Fintype ι] (x w : ι → ℝ) (s b : ℝ) :
    (∑ e, ((x e : ℝ) : EReal) * ((w e : ℝ) : EReal)) * ((s : ℝ) : EReal) + ((b : ℝ) : EReal)
      = ∑ e, ((x e : ℝ) : EReal) * (((w e : ℝ) : EReal) * ((s : ℝ) : EReal)) + ((b : ℝ) : EReal) := by
  have h1 : ∀ e, ((x e : ℝ) : EReal) * ((w e : ℝ) : EReal) = ((x e * w e : ℝ) : EReal) :=
    fun e => (EReal.coe_mul _ _).symm
  have h2 : ∀ e, ((x e : ℝ) : EReal) * (((w e : ℝ) : EReal) * ((s : ℝ) : EReal)) = ((x e * (w e * s) : ℝ) : EReal) :=
    fun e => by rw [← EReal.coe_mul, ← EReal.coe_mul]
  simp only [h1, h2]
  rw [Cert.LibRealSoftmax.sum_coe, Cert.LibRealSoftmax.sum_coe, ← EReal.coe_mul, Finset.sum_mul]
  refine congrArg (fun r : ℝ => ((r : ℝ) : EReal) + ((b : ℝ) : EReal)) (Finset.sum_congr rfl fun e _ => ?_)
  ring

end Cert.Spec
-- ==== Proof.LibDotNT.lean ====
/-
  The product of an `[M, K]` matrix with the TRANSPOSE of an `[N, K]` matrix — a `tpu.matmul` that contracts the last
  axis of both operands, no batch axis — into the zero accumulator, read at `(p, j)` at the ideal values: the sum over
  the shared axis of the products of row `p` of the left operand with row `j` of the right. (A similarity matrix
  `q kᵀ` of two blocks of row vectors is this product.)
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDotNT

open Idealize.ShloMosaic Idealize.ShloMosaic.ValueIdx

/-- Rows against rows: `(A Bᵀ)(p, j) = ∑ k, A (p, k) * B (j, k)`. -/
theorem matmulNT_apply {M K N : ℕ} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision)
    (lhs : FVec Ideal ⟨2, ![M, K]⟩ φ₁) (rhs : FVec Ideal ⟨2, ![N, K]⟩ φ₂) (p : Fin M) (j : Fin N) :
    matmul D prec lhs rhs (constant ⟨2, ![M, N]⟩ .f32 0x00000000#32) (ix2 p j)
      = ∑ k : Fin K, lhs (ix2 p k) * rhs (ix2 j k) := by
  obtain ⟨lc, rc, ln, rn, lb, rb, wf⟩ := D
  dsimp only at hlc hrc hln hrn hlb hrb
  subst hlc hrc hln hrn hlb hrb
  set D : DotDims ⟨2, ![M, K]⟩ ⟨2, ![N, K]⟩ ⟨2, ![M, N]⟩ := ⟨[1], [1], [0], [0], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 j k := funext fun a => Fin.ext (by
    match a with
    | ⟨0, _⟩ =>
      show (D.rhsIdx (ix2 p j) _ 0).val = j.val
      unfold DotDims.rhsIdx
      rw [dif_neg (show ¬(0 : Fin (⟨2, ![N, K]⟩ : Shape).rank) ∈ D.rhsBatch from List.not_mem_nil),
        dif_pos (show (0 : Fin (⟨2, ![N, K]⟩ : Shape).rank) ∈ D.rhsNonContracting from List.mem_singleton.mpr rfl)]
      rfl
    | ⟨1, _⟩ => exact (D.rhsIdx_val_of_single rfl (ix2 p j) _).trans hk)
  rw [el, er]

end Cert.LibDotNT

end
-- ==== Proof.Accum.lean ====
/-
  The running output block of the tiled product, entry by entry, at the exact extended reals.

  At a grid point the body holds an x block [1024, 512], a weight block [2048, 512], a bias row [1, 2048] and the
  scale [1, 1]. The product of the x block with the transposed weight block has, at entry (p, q), the value
  `∑ d, x (p, d) * w (q, d)` — call it the tile's term. The three control cases then read, at entry (p, q):
  first tile, `0 + term`; middle tile, `previous + term`; last tile, `(previous + term) * scale + bias q`.
  So along the eight tiles of one output block the entry is a running total with period 8, and after the last tile it
  is `(the total of the eight terms) * scale + bias q`.
-/
import proofs.«131340_j38946763441064_2_alg».proof.Proof.Cases
import proofs.«131340_j38946763441064_2_alg».proof.Proof.Spec
import proofs.«131340_j38946763441064_2_alg».proof.Proof.LibDotNT
import Idealize.ShloMosaic.Lib.ValueIdx
import Idealize.ShloMosaic.Lib.ValueLayout
import Idealize.ShloMosaic.PureOps.Ideal.Laws

noncomputable section

namespace Cert.KernelIdeal.Accum

open Cert.KernelIdeal Cert.KernelIdeal.Gen
open Idealize.ShloMosaic Idealize.ShloMosaic.TcCoe Idealize.SL.Sem Idealize.ShloMosaic.ValueIdx

/-! ## The three stored values at an entry -/

/-- The zero block. -/
theorem pay1_apply (y : S1024x2048.Idx) : k1_pay1 (F := Ideal) y = 0 := by
  show Ideal.ofBits .f32 0x00000000#32 = 0
  exact Ideal.ofBits_zero_f32

/-- The block as found plus the tile's term. -/
theorem pay2_apply (x0 : Vec Ideal S1024x512 .f32) (x1 : Vec Ideal S2048x512 .bf16) (xo : Vec Ideal S1024x2048 .f32)
    (p : Fin 1024) (q : Fin 2048) :
    k1_pay2 (F := Ideal) x0 x1 xo (ix2 p q) = xo (ix2 p q) + ∑ d : Fin 512, x0 (ix2 p d) * x1 (ix2 q d) := by
  unfold k1_pay2
  simp only [shapeCast_self]
  refine (addf_apply _ _ _).trans ?_
  exact congrArg (fun z => xo (ix2 p q) + z)
    (Cert.LibDotNT.matmulNT_apply dot_S1024x512_S2048x512_S1024x2048_1_1_0_0_n_n rfl rfl rfl rfl rfl rfl none _ x1 p q)

/-- A block times the scale plus the bias row. -/
theorem pay3_apply (x3 : Vec Ideal S1x1 .f32) (v : Vec Ideal S1024x2048 .f32) (x2 : Vec Ideal S1x2048 .f32)
    (p : Fin 1024) (q : Fin 2048) :
    k1_pay3 (F := Ideal) x3 v x2 (ix2 p q) = v (ix2 p q) * x3 (ix2 (0 : Fin 1) (0 : Fin 1)) + x2 (ix2 (0 : Fin 1) q) := by
  unfold k1_pay3
  simp only [shapeCast_self]
  refine (addf_apply _ _ _).trans ?_
  have e1 : ∀ h, broadcastTo S1024x2048 x2 h (ix2 p q) = x2 (ix2 (0 : Fin 1) q) :=
    fun h => broadcastTo_1b_ab_apply x2 h p q
  have e2 : ∀ h, extractAt ![0, 0] x3 h = x3 (ix2 (0 : Fin 1) (0 : Fin 1)) := fun h =>
    congrArg x3 (funext fun a => Fin.ext (by match a with | ⟨0, _⟩ => rfl | ⟨1, _⟩ => rfl))
  show v (ix2 p q) * extractAt ![0, 0] x3 _ + broadcastTo S1024x2048 x2 _ (ix2 p q) = _
  rw [e1, e2]

/-! ## The running block along the grid -/

variable (V : (c : Dev nD) → (b : Ref sig .tc) → Buf (Elt Ideal) ((c : Thread nD τ).loc b)) (c : Dev nD)

/-- The blocks a point holds, at their literal shapes. -/
abbrev xb (t : Fin cfg1.N) : Vec Ideal S1024x512 .f32 := iblk1 V c 0 t
abbrev wb (t : Fin cfg1.N) : Vec Ideal S2048x512 .bf16 := iblk1 V c 1 t
abbrev bb (t : Fin cfg1.N) : Vec Ideal S1x2048 .f32 := iblk1 V c 2 t
abbrev sb (t : Fin cfg1.N) : Vec Ideal S1x1 .f32 := iblk1 V c 3 t

/-- The tile's term at point `t`, entry (p, q). -/
def term (t : Fin cfg1.N) (p : Fin 1024) (q : Fin 2048) : EReal :=
  ∑ d : Fin 512, xb V c t (ix2 p d) * wb V c t (ix2 q d)

/-- First tile of a block: the entry is the tile's term. -/
theorem acc_first (t : Fin cfg1.N) (h0 : t.val % 8 = 0) (p : Fin 1024) (q : Fin 2048) :
    outsAt1 V c t.val t.isLt (ix2 p q) = term V c t p q := by
  have h1 : ¬t.val % 8 = 7 := by omega
  refine (congrFun (outsAt1_A V c t h0 h1) (ix2 p q)).trans ?_
  refine (congrFun (Cases.out_A c (grid1.coords t) (ms1_0 t) (hs1_0 t) (ms1_1 t) (hs1_1 t) (ms1_2 t) (hs1_2 t) (ms1_3 t) (hs1_3 t) (ms1_4 t) (hs1_4 t)
      ((hcond1_0 t).mpr h0) (fun h => h1 ((hcond1_1 t).mp h)) (iblk1 V c 0 t) (iblk1 V c 1 t) (iblk1 V c 2 t) (iblk1 V c 3 t)) (ix2 p q)).trans ?_
  refine (pay2_apply (iblk1 V c 0 t) (iblk1 V c 1 t) (k1_pay1 (F := Ideal)) p q).trans ?_
  rw [pay1_apply, zero_add]
  rfl

/-- Middle tile: the previous point's entry plus the tile's term. -/
theorem acc_middle (t : Fin cfg1.N) (h0 : ¬t.val % 8 = 0) (h1 : ¬t.val % 8 = 7) (p : Fin 1024) (q : Fin 2048) :
    outsAt1 V c t.val t.isLt (ix2 p q)
      = outsAt1 V c (t.val - 1) (Nat.lt_of_le_of_lt (Nat.sub_le _ _) t.isLt) (ix2 p q) + term V c t p q := by
  refine (congrFun (outsAt1_B V c t h0 h1) (ix2 p q)).trans ?_
  refine (congrFun (Cases.out_B c (grid1.coords t) (ms1_0 t) (hs1_0 t) (ms1_1 t) (hs1_1 t) (ms1_2 t) (hs1_2 t) (ms1_3 t) (hs1_3 t) (ms1_4 t) (hs1_4 t)
      (fun h => h0 ((hcond1_0 t).mp h)) (fun h => h1 ((hcond1_1 t).mp h)) (iblk1 V c 0 t) (iblk1 V c 1 t) (iblk1 V c 2 t) (iblk1 V c 3 t)
      (outsAt1 V c (t.val - 1) (Nat.lt_of_le_of_lt (Nat.sub_le _ _) t.isLt))) (ix2 p q)).trans ?_
  exact pay2_apply (iblk1 V c 0 t) (iblk1 V c 1 t) (outsAt1 V c (t.val - 1) (Nat.lt_of_le_of_lt (Nat.sub_le _ _) t.isLt)) p q

/-- Last tile: the previous entry plus the term, times the scale, plus the bias. -/
theorem acc_last (t : Fin cfg1.N) (h0 : ¬t.val % 8 = 0) (h1 : t.val % 8 = 7) (p : Fin 1024) (q : Fin 2048) :
    outsAt1 V c t.val t.isLt (ix2 p q)
      = (outsAt1 V c (t.val - 1) (Nat.lt_of_le_of_lt (Nat.sub_le _ _) t.isLt) (ix2 p q) + term V c t p q)
          * sb V c t (ix2 (0 : Fin 1) (0 : Fin 1)) + bb V c t (ix2 (0 : Fin 1) q) := by
  refine (congrFun (outsAt1_C V c t h0 h1) (ix2 p q)).trans ?_
  refine (congrFun (Cases.out_C c (grid1.coords t) (ms1_0 t) (hs1_0 t) (ms1_1 t) (hs1_1 t) (ms1_2 t) (hs1_2 t) (ms1_3 t) (hs1_3 t) (ms1_4 t) (hs1_4 t)
      (fun h => h0 ((hcond1_0 t).mp h)) ((hcond1_1 t).mpr h1) (iblk1 V c 0 t) (iblk1 V c 1 t) (iblk1 V c 2 t) (iblk1 V c 3 t)
      (outsAt1 V c (t.val - 1) (Nat.lt_of_le_of_lt (Nat.sub_le _ _) t.isLt))) (ix2 p q)).trans ?_
  refine (pay3_apply (iblk1 V c 3 t) (k1_pay2 (F := Ideal) (iblk1 V c 0 t) (iblk1 V c 1 t) (outsAt1 V c (t.val - 1) (Nat.lt_of_le_of_lt (Nat.sub_le _ _) t.isLt))) (iblk1 V c 2 t) p q).trans ?_
  exact congrArg (fun z => z * sb V c t (ix2 (0 : Fin 1) (0 : Fin 1)) + bb V c t (ix2 (0 : Fin 1) q))
    (pay2_apply (iblk1 V c 0 t) (iblk1 V c 1 t) (outsAt1 V c (t.val - 1) (Nat.lt_of_le_of_lt (Nat.sub_le _ _) t.isLt)) p q)

/-- The tile's term at a position that may lie past the grid (then 0). -/
def termN (n : ℕ) (p : Fin 1024) (q : Fin 2048) : EReal :=
  if h : n < cfg1.N then term V c ⟨n, h⟩ p q else 0

/-- After the last tile of a block the entry is the total of the block's eight terms, times the scale, plus the bias. -/
theorem acc_closed (t : Fin cfg1.N) (h7 : t.val % 8 = 7) (p : Fin 1024) (q : Fin 2048) :
    outsAt1 V c t.val t.isLt (ix2 p q)
      = (∑ k ∈ Finset.range 8, termN V c (t.val - 7 + k) p q) * sb V c t (ix2 (0 : Fin 1) (0 : Fin 1))
          + bb V c t (ix2 (0 : Fin 1) q) := by
  have key := Cert.Spec.acc8 cfg1.N
    (fun n => if h : n < cfg1.N then outsAt1 V c n h (ix2 p q) else 0)
    (fun n => termN V c n p q)
    (fun n z => if h : n < cfg1.N then z * sb V c ⟨n, h⟩ (ix2 (0 : Fin 1) (0 : Fin 1)) + bb V c ⟨n, h⟩ (ix2 (0 : Fin 1) q) else z)
    (fun n hn h0 => by
      simp only [dif_pos hn, termN]
      exact acc_first V c ⟨n, hn⟩ h0 p q)
    (fun n hn h0 h1 => by
      have hp : n - 1 < cfg1.N := Nat.lt_of_le_of_lt (Nat.sub_le _ _) hn
      simp only [dif_pos hn, dif_pos hp, termN]
      exact acc_middle V c ⟨n, hn⟩ h0 h1 p q)
    (fun n hn h1 => by
      have hp : n - 1 < cfg1.N := Nat.lt_of_le_of_lt (Nat.sub_le _ _) hn
      simp only [dif_pos hn, dif_pos hp, termN]
      exact acc_last V c ⟨n, hn⟩ (by show ¬n % 8 = 0; omega) h1 p q)
    t.val t.isLt h7
  simpa only [dif_pos t.isLt] using key

end Cert.KernelIdeal.Accum

end
-- ==== Proof.LibTileRange.lean ====
/-
  A finite range cut into equal consecutive tiles.

  A sum over the positions `0 ≤ e < N`, with `N = n * b`, is the sum over the `n` tiles of the sums over the `b`
  offsets inside a tile, the position of offset `d` of tile `k` being `b * k + d`. (A contraction over a long axis
  computed tile by tile is this regrouping.)
-/
import Mathlib.Algebra.BigOperators.Fin
import Mathlib.Algebra.BigOperators.Group.Finset.Basic
import Mathlib.Logic.Equiv.Fin.Basic

open scoped BigOperators

namespace Cert.LibTileRange

/-- Offset `d` of tile `k` lies inside the range of `n` tiles of width `b`. -/
theorem tile_lt {n b : ℕ} (k : Fin n) (d : Fin b) : b * k.val + d.val < n * b :=
  calc b * k.val + d.val < b * k.val + b := Nat.add_lt_add_left d.isLt _
    _ = b * (k.val + 1) := (Nat.mul_succ _ _).symm
    _ ≤ b * n := Nat.mul_le_mul_left _ k.isLt
    _ = n * b := Nat.mul_comm _ _

/-- The position of offset `d` of tile `k`, as an index of the whole range. -/
def tile {n b : ℕ} (N : ℕ) (hN : n * b = N) (k : Fin n) (d : Fin b) : Fin N :=
  ⟨b * k.val + d.val, hN ▸ tile_lt k d⟩

@[simp] theorem tile_val {n b : ℕ} (N : ℕ) (hN : n * b = N) (k : Fin n) (d : Fin b) :
    (tile N hN k d).val = b * k.val + d.val := rfl

/-- A sum over the whole range is the sum, tile by tile, of the sums over the offsets. -/
theorem sum_fin_tiles {M : Type*} [AddCommMonoid M] (n b N : ℕ) (hN : n * b = N) (f : Fin N → M) :
    ∑ e : Fin N, f e = ∑ k : Fin n, ∑ d : Fin b, f (tile N hN k d) := by
  subst hN
  rw [← (finProdFinEquiv (m := n) (n := b)).sum_comp, Fintype.sum_prod_type]
  refine Finset.sum_congr rfl fun k _ => Finset.sum_congr rfl fun d _ => ?_
  refine congrArg f (Fin.ext ?_)
  rw [finProdFinEquiv_apply_val, tile_val, Nat.add_comm]

end Cert.LibTileRange
-- ==== Proof.Region1.lean ====
/-
  The second launch: the tiled product, as one whole array.

  The grid is 16 × 2 × 8: point `t` is row block `t / 16`, column block `t / 8 % 2`, tile `t % 8` of the contracted
  axis. It holds rows `1024 (t / 16) + p` and columns `512 (t % 8) + d` of the left array, rows `2048 (t / 8 % 2) + q` and the
  same columns of the weights, columns `2048 (t / 8 % 2) + q` of the bias row, and the one scale. The output block is
  written back after the last tile only, and then holds, at (p, q), the total over the eight tiles of the tile terms,
  times the scale, plus the bias: the eight tiles of 512 columns are the 4096 columns, so this is
      `(∑ e < 4096, X (r, e) * W (o, e)) * scale + bias o`   at row `r = 1024 (t / 16) + p`, column `o = 2048 (t / 8 % 2) + q`.
  The 32 output blocks tile the [16384, 4096] result, each written back once.
-/
import proofs.«131340_j38946763441064_2_alg».proof.Proof.Accum
import proofs.«131340_j38946763441064_2_alg».proof.Proof.LibTileRange
import Idealize.ShloMosaic.Lib.Pipeline.Value

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)
open Cert.LibTileRange (tile)

/-- The product with scale and bias at row `r`, column `o`. -/
def prodAt (X : S16384x4096.Idx → EReal) (W : S4096x4096.Idx → EReal) (S : S1x1.Idx → EReal) (B : S1x4096.Idx → EReal)
    (r : Fin 16384) (o : Fin 4096) : EReal :=
  (∑ e : Fin 4096, X (ix2 r e) * W (ix2 o e)) * S (ix2 (0 : Fin 1) (0 : Fin 1)) + B (ix2 (0 : Fin 1) o)

/-- The same as a whole array. -/
def prodAll (X : S16384x4096.Idx → EReal) (W : S4096x4096.Idx → EReal) (S : S1x1.Idx → EReal) (B : S1x4096.Idx → EReal) :
    S16384x4096.Idx → EReal :=
  fun i => prodAt X W S B ⟨(i 0).val, (i 0).isLt⟩ ⟨(i 1).val, (i 1).isLt⟩

variable (V : (c : Dev nD) → (b : Ref sig .tc) → Buf (Elt Ideal) ((c : Thread nD τ).loc b)) (c : Dev nD)

/-- The printed index maps in closed form, decided over the grid. -/
theorem idx_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = 0 ∧ win1_3.index t (1 : Fin 2) = 0
    ∧ win1_4.index t (0 : Fin 2) = t.val / 16 ∧ win1_4.index t (1 : Fin 2) = t.val / 8 % 2 :=
  (by decide +kernel : ∀ t : Fin grid1.N, _)

/-! ## The blocks a point holds, read off the arrays -/

theorem xb_read (t : Fin cfg1.N) (p : Fin 1024) (d : Fin 512) (i : S16384x4096.Idx)
    (h0 : (i 0).val = 1024 * (t.val / 16) + p.val) (h1 : (i 1).val = 512 * (t.val % 8) + d.val) :
    Accum.xb V c t (ix2 p d) = V c main_v0 i := by
  obtain ⟨e0, e1, -⟩ := idx_facts t
  unfold Accum.xb iblk1
  rw [View.read_apply]
  show V c main_v0 _ = V c main_v0 i
  refine congrArg (V c main_v0) (funext fun a => Fin.ext ?_)
  match a with
  | ⟨0, _⟩ => show win1_0.index t (0 : Fin 2) * 1024 + 1 * p.val = (i 0).val; omega
  | ⟨1, _⟩ => show win1_0.index t (1 : Fin 2) * 512 + 1 * d.val = (i 1).val; omega

theorem wb_read (t : Fin cfg1.N) (q : Fin 2048) (d : Fin 512) (i : S4096x4096.Idx)
    (h0 : (i 0).val = 2048 * (t.val / 8 % 2) + q.val) (h1 : (i 1).val = 512 * (t.val % 8) + d.val) :
    Accum.wb V c t (ix2 q d) = V c main_v3 i := by
  obtain ⟨-, -, e0, e1, -⟩ := idx_facts t
  unfold Accum.wb iblk1
  rw [View.read_apply]
  show V c main_v3 _ = V c main_v3 i
  refine congrArg (V c main_v3) (funext fun a => Fin.ext ?_)
  match a with
  | ⟨0, _⟩ => show win1_1.index t (0 : Fin 2) * 2048 + 1 * q.val = (i 0).val; omega
  | ⟨1, _⟩ => show win1_1.index t (1 : Fin 2) * 512 + 1 * d.val = (i 1).val; omega

theorem bb_read (t : Fin cfg1.N) (q : Fin 2048) (i : S1x4096.Idx)
    (h0 : (i 0).val = 0) (h1 : (i 1).val = 2048 * (t.val / 8 % 2) + q.val) :
    Accum.bb V c t (ix2 (0 : Fin 1) q) = V c main_v2 i := by
  obtain ⟨-, -, -, -, e0, e1, -⟩ := idx_facts t
  unfold Accum.bb iblk1
  rw [View.read_apply]
  show V c main_v2 _ = V c main_v2 i
  refine congrArg (V c main_v2) (funext fun a => Fin.ext ?_)
  match a with
  | ⟨0, _⟩ => show win1_2.index t (0 : Fin 2) * 1 + 1 * 0 = (i 0).val; omega
  | ⟨1, _⟩ => show win1_2.index t (1 : Fin 2) * 2048 + 1 * q.val = (i 1).val; omega

theorem sb_read (t : Fin cfg1.N) :
    Accum.sb V c t (ix2 (0 : Fin 1) (0 : Fin 1)) = V c main_v1 (ix2 (0 : Fin 1) (0 : Fin 1)) := by
  obtain ⟨-, -, -, -, -, -, e0, e1, -⟩ := idx_facts t
  unfold Accum.sb iblk1
  rw [View.read_apply]
  show V c main_v1 _ = V c main_v1 (ix2 (0 : Fin 1) (0 : Fin 1))
  refine congrArg (V c main_v1) (funext fun a => Fin.ext ?_)
  match a with
  | ⟨0, _⟩ => show win1_3.index t (0 : Fin 2) * 1 + 1 * 0 = 0; omega
  | ⟨1, _⟩ => show win1_3.index t (1 : Fin 2) * 1 + 1 * 0 = 0; omega

/-! ## An output block after its last tile -/

/-- After the last tile of its block, entry (p, q) of the running block is the whole product at its row and column. -/
theorem entry_eq (t : Fin cfg1.N) (h7 : t.val % 8 = 7) (p : Fin 1024) (q : Fin 2048) (r : Fin 16384) (o : Fin 4096)
    (hr : r.val = 1024 * (t.val / 16) + p.val) (ho : o.val = 2048 * (t.val / 8 % 2) + q.val) :
    outsAt1 V c t.val t.isLt (ix2 p q) = prodAt (V c main_v0) (V c main_v3) (V c main_v1) (V c main_v2) r o := by
  have hN : cfg1.N = 256 := N_1
  have ht : t.val < 256 := hN ▸ t.isLt
  rw [Accum.acc_closed V c t h7 p q, sb_read V c t, bb_read V c t q (ix2 (0 : Fin 1) o) rfl ho]
  unfold prodAt
  rw [Cert.LibTileRange.sum_fin_tiles 8 512 4096 rfl, Finset.sum_range]
  refine congrArg (fun z => z * V c main_v1 (ix2 (0 : Fin 1) (0 : Fin 1)) + V c main_v2 (ix2 (0 : Fin 1) o))
    (Finset.sum_congr rfl fun k _ => ?_)
  have hk : k.val < 8 := k.isLt
  have hlt : t.val - 7 + k.val < cfg1.N := lt_of_lt_of_eq (by omega : t.val - 7 + k.val < 256) hN.symm
  unfold Accum.termN
  rw [dif_pos hlt]
  unfold Accum.term
  refine Finset.sum_congr rfl fun d _ => ?_
  have hd : d.val < 512 := d.isLt
  rw [xb_read V c ⟨t.val - 7 + k.val, hlt⟩ p d (ix2 r (tile 4096 rfl k d))
      (by show r.val = 1024 * ((t.val - 7 + k.val) / 16) + p.val; omega)
      (by show 512 * k.val + d.val = 512 * ((t.val - 7 + k.val) % 8) + d.val; omega),
    wb_read V c ⟨t.val - 7 + k.val, hlt⟩ q d (ix2 o (tile 4096 rfl k d))
      (by show o.val = 2048 * ((t.val - 7 + k.val) / 8 % 2) + q.val; omega)
      (by show 512 * k.val + d.val = 512 * ((t.val - 7 + k.val) % 8) + d.val; omega)]

/-- What a writing-back point writes is its block of the whole product. -/
theorem flushed_eq (t : Fin cfg1.N) (hf : (cfg1.win 4).flush t = true) :
    (dat1 V c).flushed 4 t
      = ((cfg1.win 4).blk t).view.read (Elt Ideal) (prodAll (V c main_v0) (V c main_v3) (V c main_v1) (V c main_v2)) := by
  have h7 : t.val % 8 = 7 := (flush1_4 t).mp hf
  obtain ⟨-, -, -, -, -, -, -, -, e0, e1⟩ := idx_facts t
  show (cfg1.win 4).cut (grid1.coords t) ((dat1 V c).after 4 t) = _
  rw [after1_4]
  funext y
  obtain ⟨p, q, rfl⟩ : ∃ (p : Fin 1024) (q : Fin 2048), y = ix2 p q := ⟨y 0, y 1, eq_ix2 y⟩
  show outsAt1 V c t.val t.isLt (ix2 p q)
    = prodAll (V c main_v0) (V c main_v3) (V c main_v1) (V c main_v2) (((cfg1.win 4).blk t).view.emb (ix2 p q))
  refine entry_eq V c t h7 p q _ _ ?_ ?_
  · show win1_4.index t (0 : Fin 2) * 1024 + 1 * p.val = 1024 * (t.val / 16) + p.val; omega
  · show win1_4.index t (1 : Fin 2) * 2048 + 1 * q.val = 2048 * (t.val / 8 % 2) + q.val; omega

/-- An index is in point `t`'s output block iff each coordinate is in the block's range on its axis. -/
theorem mem_blk (t : Fin cfg1.N) (i : S16384x4096.Idx) :
    i ∈ ((cfg1.win 4).blk t).view.set ↔ ∀ a : Fin 2, win1_4.index t a * S1024x2048.size a ≤ (i a).val
      ∧ (i a).val < win1_4.index t a * S1024x2048.size a + S1024x2048.size a := by
  show i ∈ ((View.whole main_v4).slice (win1_4.rect t)).set ↔ _
  rw [View.set_slice_whole, Rect.mem_set_unit]
  exact Iff.rfl

/-- After the launch the result array is the whole product: entry (r, o) is written back by the last tile of row block
    `r / 1024`, column block `o / 2048`. -/
theorem final : (dat1 V c).arrAt 4 cfg1.N = prodAll (V c main_v0) (V c main_v3) (V c main_v1) (V c main_v2) :=
  (dat1 V c).arrAt_eq_of_cover 4 _ (fun t hf => flushed_eq V c t hf) fun i => by
    have hi0 : (i 0).val < 16384 := (i 0).isLt
    have hi1 : (i 1).val < 4096 := (i 1).isLt
    have hN : cfg1.N = 256 := N_1
    have hlt : ((i 0).val / 1024 * 2 + (i 1).val / 2048) * 8 + 7 < cfg1.N := by rw [hN]; omega
    obtain ⟨-, -, -, -, -, -, -, -, e0, e1⟩ := idx_facts ⟨((i 0).val / 1024 * 2 + (i 1).val / 2048) * 8 + 7, hlt⟩
    dsimp only at e0 e1
    refine ⟨⟨((i 0).val / 1024 * 2 + (i 1).val / 2048) * 8 + 7, hlt⟩, (flush1_4 _).mpr (by dsimp only; omega), ?_⟩
    rw [mem_blk]
    intro a
    match a with
    | ⟨0, _⟩ =>
      show win1_4.index ⟨((i 0).val / 1024 * 2 + (i 1).val / 2048) * 8 + 7, hlt⟩ (0 : Fin 2) * 1024 ≤ (i 0).val
        ∧ (i 0).val < win1_4.index ⟨((i 0).val / 1024 * 2 + (i 1).val / 2048) * 8 + 7, hlt⟩ (0 : Fin 2) * 1024 + 1024
      rw [e0]; omega
    | ⟨1, _⟩ =>
      show win1_4.index ⟨((i 0).val / 1024 * 2 + (i 1).val / 2048) * 8 + 7, hlt⟩ (1 : Fin 2) * 2048 ≤ (i 1).val
        ∧ (i 1).val < win1_4.index ⟨((i 0).val / 1024 * 2 + (i 1).val / 2048) * 8 + 7, hlt⟩ (1 : Fin 2) * 2048 + 2048
      rw [e1]; omega

end Cert.KernelIdeal.Region1

end
-- ==== Proof.LibLayout3.lean ====
/-
  Layout operations on rank-3 vectors read at an index written by coordinates, for any extents: two leading axes merged
  into one by a shape cast (and split again), a leading unit axis broadcast over many, and one row broadcast over a
  whole [c, a, b] box. Each is the general read-at-an-index lemma with its arithmetic side condition discharged.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b, c]` array cast to `[n, c]` (so `n = a · b`) reads, at row `r = p · b + q` and column `k`, the operand at
    `(p, q, k)`: both have row-major position `(p · b + q) · c + k`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (p : Fin a) (q : Fin b)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c]` array cast to `[a, b, c]` reads, at `(p, q, k)`, the operand at row `r = p · b + q`, column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- A `[1, a, b]` array broadcast to `[c, a, b]` reads, at `(p, i, j)`, the operand's one slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[1, 1, b]` array broadcast to `[c, a, b]` reads, at `(p, i, j)`, the operand's one row at `j`. -/
theorem broadcastTo_11b_cab_apply {a b c : ℕ} (v : (⟨3, ![1, 1, b]⟩ : Shape).Idx → α)
    (h : (⟨3, ![1, 1, b]⟩ : Shape).Broadcasts ⟨3, ![c, a, b]⟩) (p : Fin c) (i : Fin a) (j : Fin b) :
    broadcastTo ⟨3, ![c, a, b]⟩ v h (ix3 p i j) = v (ix3 (0 : Fin 1) (0 : Fin 1) j) := by
  refine broadcastTo_apply v h (ix3 p i j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Idealize.ShloMosaic.ValueIdx
-- ==== Proof.HostSide.lean ====
/-
  The idealized kernel program's result as one function of its four arguments.

  Before the launches the host re-lays x [4, 4096, 4096] as [16384, 4096] (row `4096 b + s` is (b, s)), the scale [1] as
  [1, 1] and the bias [4096] as [1, 4096]; the first launch converts the integer weights; the second forms the product
  with scale and bias over these four arrays; afterwards the host re-lays the [16384, 4096] product as [4, 4096, 4096].
  Read entry by entry the result is
      `(∑ e < 4096, x (b, s, e) * w (o, e)) * scale + bias o`   at (b, s, o).
-/
import proofs.«131340_j38946763441064_2_alg».proof.Proof.KernelRun
import proofs.«131340_j38946763441064_2_alg».proof.Proof.Region0
import proofs.«131340_j38946763441064_2_alg».proof.Proof.Region1
import proofs.«131340_j38946763441064_2_alg».proof.Proof.LibLayout3
import Idealize.ShloMosaic.Lib.ValueLayout
import Idealize.ShloMosaic.Lib.StableHlo.Run

noncomputable section

namespace Cert.KernelIdeal.HostSide

open Cert.KernelIdeal Cert.KernelIdeal.Gen
open Idealize.ShloMosaic Idealize.ShloMosaic.TcCoe Idealize.SL.Sem Idealize.ShloMosaic.ValueIdx
open Idealize.ShloMosaic.StableHlo

/-- The kernel program's value at entry (b, s, o). -/
def kerAt (x0 : S4x4096x4096.Idx → EReal) (x1 : S4096x4096.Idx → Elt Ideal .i32) (x2 : S1.Idx → EReal) (x3 : S4096.Idx → EReal)
    (b : Fin 4) (s o : Fin 4096) : EReal :=
  (∑ e : Fin 4096, x0 (ix3 b s e) * FloatOps.sitofp (F := Ideal) .bf16 (x1 (ix2 o e))) * x2 (ix1 (0 : Fin 1)) + x3 (ix1 o)

/-- The same as a whole array. -/
def kerAll (x0 : S4x4096x4096.Idx → EReal) (x1 : S4096x4096.Idx → Elt Ideal .i32) (x2 : S1.Idx → EReal) (x3 : S4096.Idx → EReal) :
    S4x4096x4096.Idx → EReal :=
  fun i => kerAt x0 x1 x2 x3 ⟨(i 0).val, (i 0).isLt⟩ ⟨(i 1).val, (i 1).isLt⟩ ⟨(i 2).val, (i 2).isLt⟩

variable (m : (ℓ : Loc nD τ sig) → Buf (Elt Ideal) ℓ) (ρ : Dev nD → PrngReg) (c : Dev nD)

/-! ## The arrays the launches find -/

/-- The first launch finds the integer weights as launched. -/
theorem V1_arg1 : V1 m ρ c main_arg1 = m ((c : Thread nD τ).loc main_arg1) := by
  show StableHlo.after hostOps0 (W0 m ρ c) (Proc.devRef .tc main_arg1) = _
  after_results

/-- The second launch finds x re-laid as [16384, 4096]. -/
theorem V2_v0 : V2 m ρ c main_v0
    = shapeCast S16384x4096 (m ((c : Thread nD τ).loc main_arg0)) Facts₀.shapeCasts_S4x4096x4096_S16384x4096 :=
  (W2_of_ne m ρ c main_v0 (by decide)).trans (by
    show StableHlo.after hostOps0 (W0 m ρ c) (Proc.devRef .tc main_v0) = _
    after_results
    rfl)

/-- The second launch finds the scale re-laid as [1, 1]. -/
theorem V2_v1 : V2 m ρ c main_v1
    = shapeCast S1x1 (m ((c : Thread nD τ).loc main_arg2)) Facts₀.shapeCasts_S1_S1x1 :=
  (W2_of_ne m ρ c main_v1 (by decide)).trans (by
    show StableHlo.after hostOps0 (W0 m ρ c) (Proc.devRef .tc main_v1) = _
    after_results
    rfl)

/-- The second launch finds the bias re-laid as [1, 4096]. -/
theorem V2_v2 : V2 m ρ c main_v2
    = shapeCast S1x4096 (m ((c : Thread nD τ).loc main_arg3)) Facts₀.shapeCasts_S4096_S1x4096 :=
  (W2_of_ne m ρ c main_v2 (by decide)).trans (by
    show StableHlo.after hostOps0 (W0 m ρ c) (Proc.devRef .tc main_v2) = _
    after_results
    rfl)

/-- The second launch finds the converted weights. -/
theorem V2_v3 : V2 m ρ c main_v3 = Region0.conv (m ((c : Thread nD τ).loc main_arg1)) :=
  (W2_arr m ρ c 1).trans ((Region0.final (V1 m ρ) c).trans (congrArg Region0.conv (V1_arg1 m ρ c)))

/-- After the second launch its result array is the whole product over what it found. -/
theorem W3_v4 : W3 m ρ c (Proc.devRef .tc main_v4)
    = Region1.prodAll (V2 m ρ c main_v0) (V2 m ρ c main_v3) (V2 m ρ c main_v1) (V2 m ρ c main_v2) :=
  (W3_arr m ρ c 4).trans (Region1.final (V2 m ρ) c)

/-- The result buffer is the product re-laid as [4, 4096, 4096]. -/
theorem W4_v5 : W4 m ρ c (Proc.devRef .tc main_v5)
    = shapeCast S4x4096x4096 (W3 m ρ c (Proc.devRef .tc main_v4)) Facts₀.shapeCasts_S16384x4096_S4x4096x4096 := by
  show StableHlo.after hostOps2 (W3 m ρ c) (Proc.devRef .tc main_v5) = _
  after_results
  rfl

/-! ## The result, entry by entry -/

/-- The result buffer after the run, as one function of the four arguments. -/
theorem result_eq : W4 m ρ c (Proc.devRef .tc main_v5)
    = kerAll (m ((c : Thread nD τ).loc main_arg0)) (m ((c : Thread nD τ).loc main_arg1))
        (m ((c : Thread nD τ).loc main_arg2)) (m ((c : Thread nD τ).loc main_arg3)) := by
  rw [W4_v5, W3_v4, V2_v0, V2_v1, V2_v2, V2_v3]
  funext i
  obtain ⟨b, s, o, rfl⟩ : ∃ (b : Fin 4) (s : Fin 4096) (o : Fin 4096), i = ix3 b s o := ⟨i 0, i 1, i 2, eq_ix3 i⟩
  have hb : b.val < 4 := b.isLt
  have hs : s.val < 4096 := s.isLt
  have hr : ((⟨b.val * 4096 + s.val, by omega⟩ : Fin 16384)).val = b.val * 4096 + s.val := rfl
  refine (shapeCast_nc_abc_apply _ _ b s o ⟨b.val * 4096 + s.val, by omega⟩ hr).trans ?_
  show Region1.prodAt _ _ _ _ ⟨b.val * 4096 + s.val, by omega⟩ o = kerAt _ _ _ _ b s o
  unfold Region1.prodAt kerAt
  have hX : ∀ e : Fin 4096,
      shapeCast S16384x4096 (m ((c : Thread nD τ).loc main_arg0)) Facts₀.shapeCasts_S4x4096x4096_S16384x4096
        (ix2 (⟨b.val * 4096 + s.val, by omega⟩ : Fin 16384) e) = m ((c : Thread nD τ).loc main_arg0) (ix3 b s e) :=
    fun e => shapeCast_abc_nc_apply _ _ ⟨b.val * 4096 + s.val, by omega⟩ e b s hr
  have hS : shapeCast S1x1 (m ((c : Thread nD τ).loc main_arg2)) Facts₀.shapeCasts_S1_S1x1 (ix2 (0 : Fin 1) (0 : Fin 1))
      = m ((c : Thread nD τ).loc main_arg2) (ix1 (0 : Fin 1)) := shapeCast_a_1a_apply _ _ 0 0
  have hB : shapeCast S1x4096 (m ((c : Thread nD τ).loc main_arg3)) Facts₀.shapeCasts_S4096_S1x4096 (ix2 (0 : Fin 1) o)
      = m ((c : Thread nD τ).loc main_arg3) (ix1 o) := shapeCast_a_1a_apply _ _ 0 o
  rw [hS, hB]
  simp only [hX]

end Cert.KernelIdeal.HostSide

end
-- ==== Proof.RefEntry.lean ====
/-
  The reference, entry by entry.

  The reference converts the integer weights, multiplies each by the one scale, contracts the last axis of x against
  the last axis of the scaled weights, and adds the bias along the last axis. At entry (b, s, o) it is
      `∑ e < 4096, x (b, s, e) * (w (o, e) * scale) + bias o`.
-/
import proofs.«131340_j38946763441064_2_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The reference's value at entry (b, s, o). -/
def refAt (x0 : (⟨S4x4096x4096, .f32⟩ : BufTy).Contents (Elt Ideal)) (x1 : (⟨S4096x4096, .i32⟩ : BufTy).Contents (Elt Ideal))
    (x2 : (⟨S1, .f32⟩ : BufTy).Contents (Elt Ideal)) (x3 : (⟨S4096, .f32⟩ : BufTy).Contents (Elt Ideal))
    (b : Fin 4) (s o : Fin 4096) : EReal :=
  ∑ e : Fin 4096, x0 (ix3 b s e) * (FloatOps.sitofp (F := Ideal) .f32 (x1 (ix2 o e)) * x2 (ix1 (0 : Fin 1))) + x3 (ix1 o)

/-- The same as a whole array. -/
def refAll (x0 : (⟨S4x4096x4096, .f32⟩ : BufTy).Contents (Elt Ideal)) (x1 : (⟨S4096x4096, .i32⟩ : BufTy).Contents (Elt Ideal))
    (x2 : (⟨S1, .f32⟩ : BufTy).Contents (Elt Ideal)) (x3 : (⟨S4096, .f32⟩ : BufTy).Contents (Elt Ideal)) :
    (⟨S4x4096x4096, .f32⟩ : BufTy).Contents (Elt Ideal) :=
  fun i => refAt x0 x1 x2 x3 ⟨(i 0).val, (i 0).isLt⟩ ⟨(i 1).val, (i 1).isLt⟩ ⟨(i 2).val, (i 2).isLt⟩

/-- A one-element vector re-laid as a scalar holds that element: both have one position. -/
theorem scalar_read {α : Type} (x : S1.Idx → α) (h : S1.ShapeCasts S_) (j : S_.Idx) :
    shapeCast S_ x h j = x (ix1 (0 : Fin 1)) :=
  shapeCast_apply x h j (ix1 (0 : Fin 1)) (by
    have n1 : S1.numel = 1 := by decide
    have n0 : S_.numel = 1 := by decide
    have h1 : (S1.rowMajor (ix1 (0 : Fin 1))).val < S1.numel := (S1.rowMajor _).isLt
    have h2 : (S_.rowMajor j).val < S_.numel := (S_.rowMajor j).isLt
    omega)

/-- The reference's last stage at entry (b, s, o). -/
theorem ref_apply (x0 : (⟨S4x4096x4096, .f32⟩ : BufTy).Contents (Elt Ideal)) (x1 : (⟨S4096x4096, .i32⟩ : BufTy).Contents (Elt Ideal))
    (x2 : (⟨S1, .f32⟩ : BufTy).Contents (Elt Ideal)) (x3 : (⟨S4096, .f32⟩ : BufTy).Contents (Elt Ideal))
    (b : Fin 4) (s o : Fin 4096) :
    val_main_v7 (F := Ideal) x0 x1 x2 x3 (ix3 b s o) = refAt x0 x1 x2 x3 b s o := by
  have il : ∀ k : Fin 4096, lidx_main_v4 (ix3 b s o) k = ix3 b s k := fun k =>
    funext fun a => Fin.ext (by match a with | ⟨0, _⟩ => rfl | ⟨1, _⟩ => rfl | ⟨2, _⟩ => rfl)
  have ir : ∀ k : Fin 4096, ridx_main_v4 (ix3 b s o) k = ix2 o k := fun k =>
    funext fun a => Fin.ext (by match a with | ⟨0, _⟩ => rfl | ⟨1, _⟩ => rfl)
  have i5 : idx_main_v5 (idx_main_v6 (ix3 b s o)) = ix1 o :=
    funext fun a => Fin.ext (by match a with | ⟨0, _⟩ => rfl)
  rw [val_main_v7_apply, val_main_v4_apply, val_main_v6_apply, val_main_v5_apply, i5]
  simp only [il, ir, val_main_v3_apply, val_main_v2_apply, val_main_v0_apply]
  unfold val_main_v1 refAt
  simp only [scalar_read]
  rfl

/-- The reference's last stage is the whole array of these entries. -/
theorem ref_eq (x0 : (⟨S4x4096x4096, .f32⟩ : BufTy).Contents (Elt Ideal)) (x1 : (⟨S4096x4096, .i32⟩ : BufTy).Contents (Elt Ideal))
    (x2 : (⟨S1, .f32⟩ : BufTy).Contents (Elt Ideal)) (x3 : (⟨S4096, .f32⟩ : BufTy).Contents (Elt Ideal)) :
    val_main_v7 (F := Ideal) x0 x1 x2 x3 = refAll x0 x1 x2 x3 := by
  funext i
  obtain ⟨b, s, o, rfl⟩ : ∃ (b : Fin 4) (s : Fin 4096) (o : Fin 4096), i = ix3 b s o := ⟨i 0, i 1, i 2, eq_ix3 i⟩
  exact ref_apply x0 x1 x2 x3 b s o

end Cert.ReferenceIdeal.RefValue

end
-- ==== Proof.Finite.lean ====
/-
  The precondition, read: every entry of x, of the scale and of the bias is a real number.

  The precondition is the conjunction of three tests, one per float input: every entry `a` of the input has
  `|a| < +∞`. An extended real whose absolute value is below `+∞` is neither infinity, so it is a real number. (The
  integer weights need no test: an integer is a real number.)
-/
import proofs.«131340_j38946763441064_2_alg».proof.Pre_finite_inputs
import proofs.«131340_j38946763441064_2_alg».proof.Proof.Gen.Pre_finite_inputs
import proofs.«131340_j38946763441064_2_alg».proof.Proof.LibRealSoftmax
import Idealize.ShloMosaic.Lib.ReduceAll
import Idealize.ShloMosaic.Lib.ValueIdx

noncomputable section

namespace Cert.FiniteInputs

open Idealize.ShloMosaic Cert.Pre_finite_inputs

/-- The precondition holds of the four arrays: each float entry is a real number. -/
theorem real_of_pre (x0 : FVec Ideal S4x4096x4096 .f32) (x1 : IVec S4096x4096 32) (x2 : FVec Ideal S1 .f32)
    (x3 : FVec Ideal S4096 .f32) (h : Cert.Pre_finite_inputs.fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn] at h0
  obtain ⟨h12, h3⟩ := IntOp.andi_eq_one.mp h0
  obtain ⟨h1, h2⟩ := IntOp.andi_eq_one.mp h12
  haveI : Subsingleton S_.Idx := ⟨fun a b => funext fun d => d.elim0⟩
  refine ⟨fun i => ?_, fun i => ?_, fun i => ?_⟩
  · exact Cert.LibRealSoftmax.real_of_test (x0 i) (Host.reduce_andi_all _ _ _ _ _ h1 i)
  · exact Cert.LibRealSoftmax.real_of_test (x2 i) (Host.reduce_andi_all _ _ _ _ _ h2 i)
  · exact Cert.LibRealSoftmax.real_of_test (x3 i) (Host.reduce_andi_all _ _ _ _ _ h3 i)

end Cert.FiniteInputs

end
-- ==== Proof.Bridge.lean ====
/-
  The kernel's function and the reference's function of the four arguments agree on real inputs.

  At entry (b, s, o) the kernel gives `(∑ e, x (b, s, e) * w (o, e)) * scale + bias o` and the reference
  `∑ e, x (b, s, e) * (w (o, e) * scale) + bias o`, with `w` the integer weight read as a real number (the same real
  number whichever float format the conversion names). When every x entry, the scale and the bias are real numbers both
  are the same real number: the scale moves across the finite sum.
-/
import proofs.«131340_j38946763441064_2_alg».proof.Proof.HostSide
import proofs.«131340_j38946763441064_2_alg».proof.Proof.RefEntry
import proofs.«131340_j38946763441064_2_alg».proof.Proof.Spec

noncomputable section

namespace Cert.Bridge

open Idealize.ShloMosaic Idealize.ShloMosaic.ValueIdx
open Cert.KernelIdeal.HostSide Cert.ReferenceIdeal.RefValue

/-- On real x, scale and bias the two programs' result functions are equal. -/
theorem ker_eq_ref (x0 : (⟨Cert.ReferenceIdeal.S4x4096x4096, .f32⟩ : BufTy).Contents (Elt Ideal))
    (x1 : (⟨Cert.ReferenceIdeal.S4096x4096, .i32⟩ : BufTy).Contents (Elt Ideal))
    (x2 : (⟨Cert.ReferenceIdeal.S1, .f32⟩ : BufTy).Contents (Elt Ideal))
    (x3 : (⟨Cert.ReferenceIdeal.S4096, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal)) :
    kerAll x0 x1 x2 x3 = refAll x0 x1 x2 x3 := by
  funext i
  obtain ⟨b, s, o, rfl⟩ : ∃ (b : Fin 4) (s : Fin 4096) (o : Fin 4096), i = ix3 b s o := ⟨i 0, i 1, i 2, eq_ix3 i⟩
  show kerAt x0 x1 x2 x3 b s o = refAt x0 x1 x2 x3 b s o
  choose xr hxr using h0
  obtain ⟨sr, hsr⟩ := h2 (ix1 (0 : Fin 1))
  obtain ⟨br, hbr⟩ := h3 (ix1 o)
  have hw : ∀ e : Fin 4096, ∃ r : ℝ, FloatOps.sitofp (F := Ideal) .bf16 (x1 (ix2 o e)) = (r : EReal)
      ∧ FloatOps.sitofp (F := Ideal) .f32 (x1 (ix2 o e)) = (r : EReal) := fun e => ⟨_, rfl, rfl⟩
  choose wr hwr using hw
  have hw1 : ∀ e : Fin 4096, FloatOps.sitofp (F := Ideal) .bf16 (x1 (ix2 o e)) = (wr e : EReal) := fun e => (hwr e).1
  have hw2 : ∀ e : Fin 4096, FloatOps.sitofp (F := Ideal) .f32 (x1 (ix2 o e)) = (wr e : EReal) := fun e => (hwr e).2
  unfold kerAt refAt
  simp only [hxr, hsr, hbr, hw1, hw2]
  exact Cert.Spec.scale_out (fun e => xr (ix3 b s e)) wr sr br

end Cert.Bridge

end
-- ==== Proof.lean ====
/-
  A quantized linear layer, `y (b, s, o) = ∑ e, x (b, s, e) * (w (o, e) * scale) + bias o` with integer weights `w`, against a
  two-launch tiled kernel: the first launch converts the weights, the second forms the product tile by tile along the
  contracted axis, keeping a running output block, and applies the scale and the bias once after the last tile.

  At the exact extended reals the kernel's result is `(∑ e, x (b, s, e) * w (o, e)) * scale + bias o`: the running block is
  a period-8 running total of the eight tile terms, the eight tiles of 512 columns are the 4096 columns, and the host
  re-layouts only rename indices. Under the precondition every entry of x, the scale and the bias are real numbers, the
  weights are integers, so both results are the same real number: the scale moves across the finite sum. With an
  infinite entry that step can fail, which is why the precondition is used.

  The three programs run without fault and leave their arguments unchanged; the idealization rewrote nothing.
-/
import proofs.«131340_j38946763441064_2_alg».proof.Defs
import proofs.«131340_j38946763441064_2_alg».proof.Proof.Gen.Kernel
import proofs.«131340_j38946763441064_2_alg».proof.Proof.Gen.Kernel.Frame
import proofs.«131340_j38946763441064_2_alg».proof.Proof.Gen.KernelIdeal
import proofs.«131340_j38946763441064_2_alg».proof.Proof.Gen.KernelIdeal.Frame
import proofs.«131340_j38946763441064_2_alg».proof.Proof.Gen.ReferenceIdeal
import proofs.«131340_j38946763441064_2_alg».proof.Proof.Gen.ReferenceIdeal.Run
import proofs.«131340_j38946763441064_2_alg».proof.Proof.Gen.ReferenceIdeal.Read
import proofs.«131340_j38946763441064_2_alg».proof.Proof.Gen.Pre_finite_inputs
import proofs.«131340_j38946763441064_2_alg».proof.Proof.KernelRun
import proofs.«131340_j38946763441064_2_alg».proof.Proof.HostSide
import proofs.«131340_j38946763441064_2_alg».proof.Proof.RefEntry
import proofs.«131340_j38946763441064_2_alg».proof.Proof.Finite
import proofs.«131340_j38946763441064_2_alg».proof.Proof.Bridge
import Idealize.ShloMosaic.Adequacy
import Idealize.ShloMosaic.Init

noncomputable section

namespace Cert.Proof

open Idealize.ShloMosaic Idealize.ShloMosaic.TcCoe Idealize.SL.Sem

/-- From memories agreeing on the arguments both idealized programs run, and both results are the reference's
    function of the arguments: the kernel's by its run, its result read as a function of the arguments, and the
    agreement of the two functions on real inputs; the reference's by its run. -/
theorem algebraic : Cert.algebraic_KernelIdeal_ReferenceIdeal := by
  intro m ρ m' ρ' hpre hagree
  refine ⟨fun c => Cert.ReferenceIdeal.RefValue.refAll
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.RunValue.run_main (F := Ideal) m ρ)
    rw [Cert.KernelIdeal.HostSide.result_eq m ρ c]
    obtain ⟨h0, h2, h3⟩ := Cert.FiniteInputs.real_of_pre _ _ _ _ (hpre c)
    exact Cert.Bridge.ker_eq_ref _ _ _ _ h0 h2 h3
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.RefValue.ref_eq, (hagree c).1, (hagree c).2.1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
